-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3 : Shape := ⟨3, ![8, 1024, 3]⟩
abbrev S8x1024x256 : Shape := ⟨3, ![8, 1024, 256]⟩
abbrev S256x16 : Shape := ⟨2, ![256, 16]⟩
abbrev S256 : Shape := ⟨1, ![256]⟩
abbrev S16 : Shape := ⟨1, ![16]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S8x1024x3 .f32) (main_arg1 : FVec F S8x1024x256 .f32) (main_arg2 : FVec F S256x16 .f32) (main_arg3 : FVec F S256 .f32) (main_arg4 : FVec F S16 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x1024x3 : Shape := ⟨3, ![8, 1024, 3]⟩
abbrev S8x1024x256 : Shape := ⟨3, ![8, 1024, 256]⟩
abbrev S256x16 : Shape := ⟨2, ![256, 16]⟩
abbrev S256 : Shape := ⟨1, ![256]⟩
abbrev S16 : Shape := ⟨1, ![16]⟩
abbrev S8x3x1024 : Shape := ⟨3, ![8, 3, 1024]⟩
abbrev S16x256 : Shape := ⟨2, ![16, 256]⟩
abbrev S16x1x1 : Shape := ⟨3, ![16, 1, 1]⟩
abbrev S1x256x3 : Shape := ⟨3, ![1, 256, 3]⟩
abbrev S1x3x1024 : Shape := ⟨3, ![1, 3, 1024]⟩
abbrev S1x256x256 : Shape := ⟨3, ![1, 256, 256]⟩
abbrev S256x3 : Shape := ⟨2, ![256, 3]⟩
abbrev S256x1 : Shape := ⟨2, ![256, 1]⟩
abbrev S1x3x128 : Shape := ⟨3, ![1, 3, 128]⟩
abbrev S3x128 : Shape := ⟨2, ![3, 128]⟩
abbrev S1x128 : Shape := ⟨2, ![1, 128]⟩
abbrev S256x128 : Shape := ⟨2, ![256, 128]⟩
abbrev S1x256x128 : Shape := ⟨3, ![1, 256, 128]⟩
abbrev S16x256x128 : Shape := ⟨3, ![16, 256, 128]⟩
abbrev S256x256 : Shape := ⟨2, ![256, 256]⟩
abbrev S1x256 : Shape := ⟨2, ![1, 256]⟩

abbrev nBuf : Space → Nat
  | .hbm => 9
  | .vmem => 11
  | .smem => 0
  | _ => 0

abbrev bufTy : (tb : Table) → Fin (tcTables nBuf tb) → BufTy
  | .hbm, ⟨0, _⟩ => ⟨S8x1024x3, .f32⟩
  | .hbm, ⟨1, _⟩ => ⟨S8x1024x256, .f32⟩
  | .hbm, ⟨2, _⟩ => ⟨S256x16, .f32⟩
  | .hbm, ⟨3, _⟩ => ⟨S256, .f32⟩
  | .hbm, ⟨4, _⟩ => ⟨S16, .f32⟩
  | .hbm, ⟨5, _⟩ => ⟨S8x3x1024, .f32⟩
  | .hbm, ⟨6, _⟩ => ⟨S16x256, .f32⟩
  | .hbm, ⟨7, _⟩ => ⟨S16x1x1, .f32⟩
  | .hbm, ⟨8, _⟩ => ⟨S8x1024x256, .f32⟩
  | .local _ .vmem, ⟨0, _⟩ => ⟨S1x256x3, .f32⟩
  | .local _ .vmem, ⟨1, _⟩ => ⟨S1x256x3, .f32⟩
  | .local _ .vmem, ⟨2, _⟩ => ⟨S1x3x1024, .f32⟩
  | .local _ .vmem, ⟨3, _⟩ => ⟨S1x3x1024, .f32⟩
  | .local _ .vmem, ⟨4, _⟩ => ⟨S1x256x256, .f32⟩
  | .local _ .vmem, ⟨5, _⟩ => ⟨S1x256x256, .f32⟩
  | .local _ .vmem, ⟨6, _⟩ => ⟨S16x256, .f32⟩
  | .local _ .vmem, ⟨7, _⟩ => ⟨S256, .f32⟩
  | .local _ .vmem, ⟨8, _⟩ => ⟨S16x1x1, .f32⟩
  | .local _ .vmem, ⟨9, _⟩ => ⟨S1x256x256, .f32⟩
  | .local _ .vmem, ⟨10, _⟩ => ⟨S1x256x256, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v28 : BitVec 32 := Scalar.muli arg9 c128_i32
  v28
def k0_off1 (k0_t1 : Fin k0_t1_loop.trips) : Fin 3 → Nat :=
  let c0_17 : Index := 0#32
  let c0_18 : Index := 0#32
  let c0_i32 : BitVec 32 := 0#32
  let c1_i32 : BitVec 32 := 1#32
  let arg9 : BitVec 32 := Scf.iv c0_i32 c1_i32 k0_t1
  let c128_i32 : BitVec 32 := 128#32
  let v28 : BitVec 32 := Scalar.muli arg9 c128_i32
  let v29 : BitVec 32 := v28
  let v30 : Index := Scalar.indexCast v29
  ![0, 0, v30.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x1024x3_S8x3x1024_0_2_1 : S8x1024x3.Transposes [0, 2, 1] S8x3x1024
  transposes_S256x16_S16x256_1_0 : S256x16.Transposes [1, 0] S16x256
  shapeCasts_S16_S16x1x1 : S16.ShapeCasts S16x1x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  h_S1x3x128 : 0 < S1x3x128.numel
  shapeCasts_S1x3x128_S3x128 : S1x3x128.ShapeCasts S3x128
  slices_S3x128_o0_0_S1x128 : S3x128.Slices ![0, 0] S1x128
  slices_S3x128_o1_0_S1x128 : S3x128.Slices ![1, 0] S1x128
  slices_S3x128_o2_0_S1x128 : S3x128.Slices ![2, 0] S1x128
  broadcasts_S256x1_S256x128 : S256x1.Broadcasts S256x128
  broadcasts_S1x128_S256x128 : S1x128.Broadcasts S256x128
  shapeCasts_S256x128_S1x256x128 : S256x128.ShapeCasts S1x256x128
  broadcasts_S16x1x1_S16x256x128 : S16x1x1.Broadcasts S16x256x128
  broadcasts_S1x256x128_S16x256x128 : S1x256x128.Broadcasts S16x256x128
  reduces_S16x256x128_S16x256 : S16x256x128.Reduces [2] S16x256
  transposes_S16x256_p1_0_S256x16 : S16x256.Transposes [1, 0] S256x16
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x16_S16x256_S256x256_1_0_0_1_n_n_wf : DotDims.WF S256x16 S16x256 S256x256 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x3x128.size a ≤ S1x3x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x1024x3.size a
  hwx0_0 : ∀ i : grid0.Coords, EltTy.bits .f32 = 32 ∨ (Rect.block (s := S8x1024x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x1024.size a
  hwx0_1 : ∀ i : grid0.Coords, EltTy.bits .f32 = 32 ∨ (Rect.block (s := S8x3x1024) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x1024x256.size a
  hwx0_2 : ∀ i : grid0.Coords, EltTy.bits .f32 = 32 ∨ (Rect.block (s := S8x1024x256) S1x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1x1.size a ≤ S16x1x1.size a
  hwx0_5 : ∀ i : grid0.Coords, EltTy.bits .f32 = 32 ∨ (Rect.block (s := S16x1x1) S16x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S8x1024x256.size a
  hwx0_6 : ∀ i : grid0.Coords, EltTy.bits .f32 = 32 ∨ (Rect.block (s := S8x1024x256) S1x256x256.size (cc0_transform_6 i) (hinb0_6 i)).WholeWords (EltTy.packing .f32)

variable [Facts₀]

def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x3 : Shape := ⟨3, ![8, 1024, 3]⟩
abbrev S8x1024x256 : Shape := ⟨3, ![8, 1024, 256]⟩
abbrev S256x16 : Shape := ⟨2, ![256, 16]⟩
abbrev S256 : Shape := ⟨1, ![256]⟩
abbrev S16 : Shape := ⟨1, ![16]⟩
abbrev S8x1024x1x3 : Shape := ⟨4, ![8, 1024, 1, 3]⟩
abbrev S8x1x1024x3 : Shape := ⟨4, ![8, 1, 1024, 3]⟩
abbrev S8x1024x1024x3 : Shape := ⟨4, ![8, 1024, 1024, 3]⟩
abbrev S_ : Shape := ⟨0, ![]⟩
abbrev S8x1024x1024 : Shape := ⟨3, ![8, 1024, 1024]⟩
abbrev S8x1024x1024x1 : Shape := ⟨4, ![8, 1024, 1024, 1]⟩
abbrev S1x1x1x16 : Shape := ⟨4, ![1, 1, 1, 16]⟩
abbrev S8x1024x1024x16 : Shape := ⟨4, ![8, 1024, 1024, 16]⟩
abbrev S8x1024x16 : Shape := ⟨3, ![8, 1024, 16]⟩
abbrev S1x1x256 : Shape := ⟨3, ![1, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x3, .f32⟩
  | .hbm, ⟨1, _⟩ => ⟨S8x1024x256, .f32⟩
  | .hbm, ⟨2, _⟩ => ⟨S256x16, .f32⟩
  | .hbm, ⟨3, _⟩ => ⟨S256, .f32⟩
  | .hbm, ⟨4, _⟩ => ⟨S16, .f32⟩
  | .hbm, ⟨5, _⟩ => ⟨S8x1024x1x3, .f32⟩
  | .hbm, ⟨6, _⟩ => ⟨S8x1x1024x3, .f32⟩
  | .hbm, ⟨7, _⟩ => ⟨S8x1024x1024x3, .f32⟩
  | .hbm, ⟨8, _⟩ => ⟨S8x1024x1024x3, .f32⟩
  | .hbm, ⟨9, _⟩ => ⟨S8x1024x1024x3, .f32⟩
  | .hbm, ⟨10, _⟩ => ⟨S8x1024x1024x3, .f32⟩
  | .hbm, ⟨11, _⟩ => ⟨S_, .f32⟩
  | .hbm, ⟨12, _⟩ => ⟨S8x1024x1024, .f32⟩
  | .hbm, ⟨13, _⟩ => ⟨S8x1024x1024, .f32⟩
  | .hbm, ⟨14, _⟩ => ⟨S8x1024x1024x1, .f32⟩
  | .hbm, ⟨15, _⟩ => ⟨S1x1x1x16, .f32⟩
  | .hbm, ⟨16, _⟩ => ⟨S8x1024x1024x16, .f32⟩
  | .hbm, ⟨17, _⟩ => ⟨S8x1024x1024x16, .f32⟩
  | .hbm, ⟨18, _⟩ => ⟨S8x1024x1024x16, .f32⟩
  | .hbm, ⟨19, _⟩ => ⟨S8x1024x1024x16, .f32⟩
  | .hbm, ⟨20, _⟩ => ⟨S_, .f32⟩
  | .hbm, ⟨21, _⟩ => ⟨S8x1024x1024x16, .f32⟩
  | .hbm, ⟨22, _⟩ => ⟨S8x1024x1024x16, .f32⟩
  | .hbm, ⟨23, _⟩ => ⟨S8x1024x1024x16, .f32⟩
  | .hbm, ⟨24, _⟩ => ⟨S_, .f32⟩
  | .hbm, ⟨25, _⟩ => ⟨S8x1024x16, .f32⟩
  | .hbm, ⟨26, _⟩ => ⟨S_, .f32⟩
  | .hbm, ⟨27, _⟩ => ⟨S8x1024x16, .f32⟩
  | .hbm, ⟨28, _⟩ => ⟨S8x1024x16, .f32⟩
  | .hbm, ⟨29, _⟩ => ⟨S8x1024x256, .f32⟩
  | .hbm, ⟨30, _⟩ => ⟨S1x1x256, .f32⟩
  | .hbm, ⟨31, _⟩ => ⟨S8x1024x256, .f32⟩
  | .hbm, ⟨32, _⟩ => ⟨S8x1024x256, .f32⟩
  | .hbm, ⟨33, _⟩ => ⟨S8x1024x256, .f32⟩
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S8x1024x3_S8x1024x1x3_0_1_3 : S8x1024x3.BroadcastsInDim S8x1024x1x3 (![0, 1, 3] : Fin 3 → Fin S8x1024x1x3.rank)
  bcast_S8x1024x3_S8x1x1024x3_0_2_3 : S8x1024x3.BroadcastsInDim S8x1x1024x3 (![0, 2, 3] : Fin 3 → Fin S8x1x1024x3.rank)
  bcast_S8x1024x1x3_S8x1024x1024x3_0_1_2_3 : S8x1024x1x3.BroadcastsInDim S8x1024x1024x3 (![0, 1, 2, 3] : Fin 4 → Fin S8x1024x1024x3.rank)
  bcast_S8x1x1024x3_S8x1024x1024x3_0_1_2_3 : S8x1x1024x3.BroadcastsInDim S8x1024x1024x3 (![0, 1, 2, 3] : Fin 4 → Fin S8x1024x1024x3.rank)
  reducesTo_S8x1024x1024x3_S8x1024x1024_d3 : S8x1024x1024x3.ReducesTo [3] S8x1024x1024
  h_S_ : 0 < S_.numel
  bcast_S8x1024x1024_S8x1024x1024x1_0_1_2 : S8x1024x1024.BroadcastsInDim S8x1024x1024x1 (![0, 1, 2] : Fin 3 → Fin S8x1024x1024x1.rank)
  bcast_S16_S1x1x1x16_3 : S16.BroadcastsInDim S1x1x1x16 (![3] : Fin 1 → Fin S1x1x1x16.rank)
  bcast_S8x1024x1024x1_S8x1024x1024x16_0_1_2_3 : S8x1024x1024x1.BroadcastsInDim S8x1024x1024x16 (![0, 1, 2, 3] : Fin 4 → Fin S8x1024x1024x16.rank)
  bcast_S1x1x1x16_S8x1024x1024x16_0_1_2_3 : S1x1x1x16.BroadcastsInDim S8x1024x1024x16 (![0, 1, 2, 3] : Fin 4 → Fin S8x1024x1024x16.rank)
  bcast_S_S8x1024x1024x16 : S_.BroadcastsInDim S8x1024x1024x16 (![] : Fin 0 → Fin S8x1024x1024x16.rank)
  reducesTo_S8x1024x1024x16_S8x1024x16_d2 : S8x1024x1024x16.ReducesTo [2] S8x1024x16
  bcast_S_S8x1024x16 : S_.BroadcastsInDim S8x1024x16 (![] : Fin 0 → Fin S8x1024x16.rank)
  bcast_S256_S1x1x256_2 : S256.BroadcastsInDim S1x1x256 (![2] : Fin 1 → Fin S1x1x256.rank)
  bcast_S1x1x256_S8x1024x256_0_1_2 : S1x1x256.BroadcastsInDim S8x1024x256 (![0, 1, 2] : Fin 3 → Fin S8x1024x256.rank)
  dot_S8x1024x16_S256x16_S8x1024x256_2_1_01_0_n_n_wf : DotDims.WF S8x1024x16 S256x16 S8x1024x256 [2] [1] [0, 1] [0] [] []

variable [Facts₀]

def dot_S8x1024x16_S256x16_S8x1024x256_2_1_01_0_n_n : DotDims S8x1024x16 S256x16 S8x1024x256 where
  lhsContracting := [2]
  rhsContracting := [1]
  lhsNonContracting := [0, 1]
  rhsNonContracting := [0]
  lhsBatch := []
  rhsBatch := []
  wf := dot_S8x1024x16_S256x16_S8x1024x256_2_1_01_0_n_n_wf

class Facts : Prop extends Facts₀ where

variable [Facts]
-- ==== Proof.Spec.lean ====
/-
  The function both programs compute, over the extended reals.

  For a batch `b`, a query point `l` and a hidden channel `h` the result is

      latent (b, l, h) + ( Σ_r  ( (Σ_n rbf (c_r, ‖p_l − p_n‖)) · 2⁻¹⁰ ) · W (h, r)  +  bias h ),

  where `p_l`, `p_n` are the three coordinates of two points of batch `b`, `n` runs over all 1024 points,
  `r` over the 16 radial centres `c_r`, `‖·‖` is the square root of the sum of the three squared differences and
  `rbf (c, d) = exp ((−½ · (c − d)) · (c − d))`.

  Two facts about the extended reals join the two programs' spellings of this function and are proved here.
  The square of a difference does not depend on its order, `(c − d)·(c − d) = (d − c)·(d − c)`, at the
  infinities too: off the two corners `c = d = ±∞` the two differences are negatives of one another, and at
  those corners they are equal. And dividing by 1024 is multiplying by 2⁻¹⁰, on every extended real.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The factor −½ of the exponent, as the float word both programs carry. -/
abbrev half : EReal := Ideal.ofBits .f32 0xBF000000#32

/-- The factor 2⁻¹⁰ = 1/1024 of the mean, as the float word the kernel carries. -/
abbrev inv1024 : EReal := Ideal.ofBits .f32 0x3A800000#32

/-- The distance of two points given by their three coordinates. -/
def dist (p q : Fin 3 → EReal) : EReal :=
  Ideal.sqrt (((p 0 - q 0) * (p 0 - q 0) + (p 1 - q 1) * (p 1 - q 1)) + (p 2 - q 2) * (p 2 - q 2))

/-- One radial basis value: `exp ((−½ · (c − d)) · (c − d))` for a centre `c` and a distance `d`. -/
def rbf (c d : EReal) : EReal := Ideal.exp ((half * (c - d)) * (c - d))

/-- One output entry from its latent entry, the 16 radial sums, the 16 weights of its channel and its bias. -/
def outAt (lat : EReal) (S w : Fin 16 → EReal) (bias : EReal) : EReal :=
  lat + ((∑ r : Fin 16, (S r * inv1024) * w r) + bias)

/-- The whole result as a function of the five argument arrays. -/
def G (pos : (⟨3, ![8, 1024, 3]⟩ : Shape).Idx → EReal) (lat : (⟨3, ![8, 1024, 256]⟩ : Shape).Idx → EReal)
    (W : (⟨2, ![256, 16]⟩ : Shape).Idx → EReal) (bias : (⟨1, ![256]⟩ : Shape).Idx → EReal)
    (cen : (⟨1, ![16]⟩ : Shape).Idx → EReal) : (⟨3, ![8, 1024, 256]⟩ : Shape).Idx → EReal :=
  fun i => outAt (lat i)
    (fun r => ∑ n : Fin 1024, rbf (cen (ix1 r)) (dist (fun a => pos (ix3 (i 0) (i 1) a)) (fun a => pos (ix3 (i 0) n a))))
    (fun r => W (ix2 (i 2) r)) (bias (ix1 (i 2)))

/-- The square of a difference of extended reals does not depend on the order of the difference. -/
theorem sq_sub_comm (c d : EReal) : (c - d) * (c - d) = (d - c) * (d - c) := by
  by_cases h1 : c = ⊥ ∧ d = ⊥
  · rw [h1.1, h1.2]
  by_cases h2 : c = ⊤ ∧ d = ⊤
  · rw [h2.1, h2.2]
  have h : -(c - d) = d - c := by
    rw [EReal.neg_sub (not_and_or.mp h1) (not_and_or.mp h2), sub_eq_add_neg, add_comm]
  rw [← h, neg_mul_neg]

/-- The other spelling of a radial basis value: −½ times the square of `d − c`. -/
theorem rbf_of_sq (c d : EReal) : Ideal.exp (half * ((d - c) * (d - c))) = rbf c d := by
  unfold rbf
  rw [mul_assoc, sq_sub_comm c d]

theorem ofBits_1024 : Ideal.ofBits .f32 0x44800000#32 = ((1024 : ℝ) : EReal) := by
  simp [Ideal.ofBits, Ideal.ieee, -EReal.coe_mul]; norm_num

theorem inv1024_eq : inv1024 = ((1 / 1024 : ℝ) : EReal) := by
  simp [Ideal.ofBits, Ideal.ieee, -EReal.coe_mul]; norm_num

/-- Dividing by 1024 is multiplying by 2⁻¹⁰, for every extended real. -/
theorem div_1024 (x : EReal) : Ideal.div x (Ideal.ofBits .f32 0x44800000#32) = x * inv1024 := by
  rw [ofBits_1024, Ideal.div_coe (by norm_num), inv1024_eq]

end Cert.Rbf

end
-- ==== Proof.RefValue.lean ====
/-
  The reference program computes the specification function.

  Read index by index, the reference's result at a batch `b`, a query point `l` and a hidden channel `h` is built in
  four steps, each a lemma below: the distance of two points of a batch (a square root of a sum over the three
  coordinates); one radial basis value of that distance (the exponential of −½ times the squared difference to a
  centre); the mean of the radial basis values over the second point (a sum over 1024 points divided by 1024); and the
  linear layer (a sum over the 16 centres, plus the bias), added to the latent. The sums over the 1024 points and over
  the 16 centres stay symbolic; only the sum over the three coordinates is written out.
-/
import proofs.«113788_j62199716381658_1_alg».proof.Proof.Gen.ReferenceIdeal.Read
import proofs.«113788_j62199716381658_1_alg».proof.Proof.Spec

noncomputable section

open scoped BigOperators

namespace Cert.Rbf.Ref

open Cert.ReferenceIdeal Cert.ReferenceIdeal.Gen Cert.ReferenceIdeal.Read Idealize.ShloMosaic Idealize.ShloMosaic.ValueIdx

/-- Coordinate `a` of the first point of the pair `(l, n)` of batch `b` sits at `(b, l, a)` of the positions. -/
theorem idx_fst (b : Fin 8) (l n : Fin 1024) (a : Fin 3) :
    idx_main_v0 (idx_main_v2 (idx_main_call0_v1 (ix3 b l n) a)) = ix3 b l a :=
  funext fun d => Fin.ext (by match d with | ⟨0, _⟩ => rfl | ⟨1, _⟩ => rfl | ⟨2, _⟩ => rfl)

/-- Coordinate `a` of the second point of the pair `(l, n)` of batch `b` sits at `(b, n, a)` of the positions. -/
theorem idx_snd (b : Fin 8) (l n : Fin 1024) (a : Fin 3) :
    idx_main_v1 (idx_main_v3 (idx_main_call0_v1 (ix3 b l n) a)) = ix3 b n a :=
  funext fun d => Fin.ext (by match d with | ⟨0, _⟩ => rfl | ⟨1, _⟩ => rfl | ⟨2, _⟩ => rfl)

/-- The distance broadcast along the centres is read at the pair `(b, l, n)`. -/
theorem idx_dist (b : Fin 8) (l n : Fin 1024) (r : Fin 16) :
    idx_main_v6 (idx_main_v8 (ix4 b l n r)) = ix3 b l n :=
  funext fun d => Fin.ext (by match d with | ⟨0, _⟩ => rfl | ⟨1, _⟩ => rfl | ⟨2, _⟩ => rfl)

/-- The centres broadcast along the pairs are read at the centre `r`. -/
theorem idx_cen (b : Fin 8) (l n : Fin 1024) (r : Fin 16) :
    idx_main_v7 (idx_main_v9 (ix4 b l n r)) = ix1 r :=
  funext fun d => Fin.ext (by match d with | ⟨0, _⟩ => rfl)

/-- The sum over the second point `n` reads the radial basis values at `(b, l, n, r)`. -/
theorem idx_mean (b : Fin 8) (l n : Fin 1024) (r : Fin 16) :
    idx_main_v15 (ix3 b l r) n = ix4 b l n r :=
  funext fun d => Fin.ext (by match d with | ⟨0, _⟩ => rfl | ⟨1, _⟩ => rfl | ⟨2, _⟩ => rfl | ⟨3, _⟩ => rfl)

/-- The linear layer reads the means at `(b, l, r)`. -/
theorem idx_lhs (b : Fin 8) (l : Fin 1024) (h : Fin 256) (r : Fin 16) :
    lidx_main_v18 (ix3 b l h) r = ix3 b l r :=
  funext fun d => Fin.ext (by match d with | ⟨0, _⟩ => rfl | ⟨1, _⟩ => rfl | ⟨2, _⟩ => rfl)

/-- The linear layer reads the weights at `(h, r)`. -/
theorem idx_rhs (b : Fin 8) (l : Fin 1024) (h : Fin 256) (r : Fin 16) :
    ridx_main_v18 (ix3 b l h) r = ix2 h r :=
  funext fun d => Fin.ext (by match d with | ⟨0, _⟩ => rfl | ⟨1, _⟩ => rfl)

/-- The bias broadcast along the batches and points is read at the channel `h`. -/
theorem idx_bias (b : Fin 8) (l : Fin 1024) (h : Fin 256) :
    idx_main_v19 (idx_main_v20 (ix3 b l h)) = ix1 h :=
  funext fun d => Fin.ext (by match d with | ⟨0, _⟩ => rfl)

/-- The reference's norm of the difference of the points `l` and `n` of batch `b` is their distance. -/
theorem dist_eq (x0 : (⟨S8x1024x3, .f32⟩ : BufTy).Contents (Elt Ideal)) (b : Fin 8) (l n : Fin 1024) :
    val_main_v5 (F := Ideal) x0 (ix3 b l n)
      = dist (fun a => x0 (ix3 b l a)) (fun a => x0 (ix3 b n a)) := by
  rw [val_main_v5_apply, val_main_call0_v1_apply]
  simp only [val_main_call0_v0_apply, val_main_v4_apply, val_main_v2_apply, val_main_v3_apply, val_main_v0_apply,
    val_main_v1_apply, val_main_call0_cst_apply, idx_fst, idx_snd, Ideal.subf_def, Ideal.mulf_def,
    Ideal.hostUnary_sqrt_def, Ideal.ofBits_def, Ideal.ofBits_zero_f32, zero_add, Fin.sum_univ_three]
  rfl

/-- The reference's exponential at `(b, l, n, r)` is the radial basis value of centre `r` at the distance of `l` and `n`. -/
theorem rbf_eq (x0 : (⟨S8x1024x3, .f32⟩ : BufTy).Contents (Elt Ideal)) (x4 : (⟨S16, .f32⟩ : BufTy).Contents (Elt Ideal))
    (b : Fin 8) (l n : Fin 1024) (r : Fin 16) :
    val_main_v14 (F := Ideal) x0 x4 (ix4 b l n r)
      = rbf (x4 (ix1 r)) (dist (fun a => x0 (ix3 b l a)) (fun a => x0 (ix3 b n a))) := by
  rw [val_main_v14_apply, val_main_v13_apply, val_main_v12_apply, val_main_cst_apply, val_main_v11_apply,
    val_main_v10_apply, val_main_v8_apply, val_main_v6_apply, val_main_v9_apply, val_main_v7_apply, idx_dist, idx_cen,
    dist_eq]
  simp only [Ideal.subf_def, Ideal.mulf_def, Ideal.hostUnary_exp_def, Ideal.ofBits_def]
  exact rbf_of_sq _ _

/-- The reference's mean at `(b, l, r)` is the sum of the radial basis values over the second point times 2⁻¹⁰. -/
theorem mean_eq (x0 : (⟨S8x1024x3, .f32⟩ : BufTy).Contents (Elt Ideal)) (x4 : (⟨S16, .f32⟩ : BufTy).Contents (Elt Ideal))
    (b : Fin 8) (l : Fin 1024) (r : Fin 16) :
    val_main_v17 (F := Ideal) x0 x4 (ix3 b l r)
      = (∑ n : Fin 1024, rbf (x4 (ix1 r)) (dist (fun a => x0 (ix3 b l a)) (fun a => x0 (ix3 b n a)))) * inv1024 := by
  rw [val_main_v17_apply, val_main_v16_apply, val_main_cst_1_apply, val_main_v15_apply, val_main_cst_0_apply]
  simp only [idx_mean, rbf_eq, Ideal.hostDivf_def, Ideal.ofBits_def, Ideal.ofBits_zero_f32, zero_add]
  exact div_1024 _

/-- The reference's result, read index by index, is the specification function. -/
theorem ref_eq (x0 : (⟨S8x1024x3, .f32⟩ : BufTy).Contents (Elt Ideal)) (x1 : (⟨S8x1024x256, .f32⟩ : BufTy).Contents (Elt Ideal))
    (x2 : (⟨S256x16, .f32⟩ : BufTy).Contents (Elt Ideal)) (x3 : (⟨S256, .f32⟩ : BufTy).Contents (Elt Ideal))
    (x4 : (⟨S16, .f32⟩ : BufTy).Contents (Elt Ideal)) :
    val_main_v22 (F := Ideal) x0 x1 x2 x3 x4 = Cert.Rbf.G x0 x1 x2 x3 x4 := by
  funext i
  obtain ⟨b, l, h, rfl⟩ : ∃ (b : Fin 8) (l : Fin 1024) (h : Fin 256), i = ix3 b l h := ⟨i 0, i 1, i 2, eq_ix3 i⟩
  rw [val_main_v22_apply, val_main_v21_apply, val_main_v18_apply, val_main_v20_apply, val_main_v19_apply, idx_bias]
  simp only [idx_lhs, idx_rhs, mean_eq, Ideal.addf_def]
  rfl

end Cert.Rbf.Ref

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KernelPay.lean ====
/-
  The kernel body's arithmetic read at an index.

  One trip of the body's loop adds, to the running [16, 256] table of radial sums, the sums over one chunk of 128
  key points: at (centre k, query row r) the sum over the chunk's 128 keys of `rbf (c_k, ‖q_r − key_j‖)`. After the
  loop the stored block is, at (row r, channel h), the latent entry plus the 16 table entries of row r scaled by
  2⁻¹⁰ and multiplied into the 16 weights of channel h, plus the bias of h.
-/
import proofs.«113788_j62199716381658_1_alg».proof.Proof.Gen.KernelIdeal.Skeleton
import proofs.«113788_j62199716381658_1_alg».proof.Proof.Spec
import proofs.«113788_j62199716381658_1_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf.Kernel

open Cert.KernelIdeal Cert.KernelIdeal.Gen Idealize.ShloMosaic Idealize.ShloMosaic.ValueIdx Cert.Rbf

/-- A lane sum over the last axis of a [16, 256, 128] array into the zero accumulator, read at (k, r), is the sum of
    the 128 entries of that lane. -/
theorem lane_sum (src : FVec Ideal S16x256x128 .f32) (h : S16x256x128.Reduces [2] S16x256) (hφ : FKind.Formats .f32)
    (hacc : (0x00000000#32 : BitVec FTy.f32.bits) = FKind.add.neutral .f32 hφ) (k : Fin 16) (r : Fin 256) :
    multiReduction .add [2] S16x256 src 0x00000000#32 h hφ hacc (ix2 k r) = ∑ j : Fin 128, src (ix3 k r j) := by
  refine (Ideal.multiReduction_add_single src 0x00000000#32 h hφ hacc (ix2 k r)).trans ?_
  refine Finset.sum_congr rfl fun j _ => congrArg src ?_
  funext a
  match a with
  | ⟨0, _⟩ => rfl
  | ⟨1, _⟩ => rfl
  | ⟨2, _⟩ => rfl

variable {α : Type}

/-- The 16 centres, a [16, 1, 1] column, spread over a [16, 256, 128] array: the entry at (k, r, j) is centre k. -/
theorem spread_centres (v : S16x1x1.Idx → α) (h : S16x1x1.Broadcasts S16x256x128) (k : Fin 16) (r : Fin 256) (j : Fin 128) :
    broadcastTo S16x256x128 v h (ix3 k r j) = v (ix3 k (0 : Fin 1) (0 : Fin 1)) :=
  broadcastTo_apply v h (ix3 k r j) (ix3 k (0 : Fin 1) (0 : Fin 1)) fun a => by
    match a with
    | ⟨0, _⟩ => rfl
    | ⟨1, _⟩ => rfl
    | ⟨2, _⟩ => rfl

/-- A [1, 256, 128] array spread over 16 copies: the entry at (k, r, j) is the entry at (0, r, j). -/
theorem spread_dists (v : S1x256x128.Idx → α) (h : S1x256x128.Broadcasts S16x256x128) (k : Fin 16) (r : Fin 256) (j : Fin 128) :
    broadcastTo S16x256x128 v h (ix3 k r j) = v (ix3 (0 : Fin 1) r j) :=
  broadcastTo_apply v h (ix3 k r j) (ix3 (0 : Fin 1) r j) fun a => by
    match a with
    | ⟨0, _⟩ => rfl
    | ⟨1, _⟩ => rfl
    | ⟨2, _⟩ => rfl

/-- A [256, 1] column spread along the 128 columns: the entry at (r, j) is the column's entry of row r. -/
theorem spread_col (v : S256x1.Idx → α) (h : S256x1.Broadcasts S256x128) (r : Fin 256) (j : Fin 128) :
    broadcastTo S256x128 v h (ix2 r j) = v (ix2 r (0 : Fin 1)) :=
  broadcastTo_apply v h (ix2 r j) (ix2 r (0 : Fin 1)) fun a => by
    match a with
    | ⟨0, _⟩ => rfl
    | ⟨1, _⟩ => rfl

/-- Coordinate `a` of the 256 query points: column `a` of the [256, 3] view of the [1, 256, 3] block. -/
theorem query_coord (v0 : S1x256x3.Idx → α) (hc : S1x256x3.ShapeCasts S256x3) (o : ℕ) (a : Fin 3) (ha : a.val = o)
    (hs : S256x3.Slices ![0, o] S256x1) (r : Fin 256) :
    extractStridedSlice S256x1 ![0, o] (shapeCast S256x3 v0 hc) hs (ix2 r (0 : Fin 1)) = v0 (ix3 (0 : Fin 1) r a) :=
  (slice2_axis1_apply o _ hs r (0 : Fin 1) a (by simp [ha])).trans (shapeCast_1ab_ab_apply v0 hc r a)

theorem query_coord0 (v0 : S1x256x3.Idx → α) (hc : S1x256x3.ShapeCasts S256x3) (hs : S256x3.Slices ![0, 0] S256x1) (r : Fin 256) :
    extractStridedSlice S256x1 ![0, 0] (shapeCast S256x3 v0 hc) hs (ix2 r (0 : Fin 1)) = v0 (ix3 (0 : Fin 1) r (0 : Fin 3)) :=
  query_coord v0 hc 0 0 rfl hs r
theorem query_coord1 (v0 : S1x256x3.Idx → α) (hc : S1x256x3.ShapeCasts S256x3) (hs : S256x3.Slices ![0, 1] S256x1) (r : Fin 256) :
    extractStridedSlice S256x1 ![0, 1] (shapeCast S256x3 v0 hc) hs (ix2 r (0 : Fin 1)) = v0 (ix3 (0 : Fin 1) r (1 : Fin 3)) :=
  query_coord v0 hc 1 1 rfl hs r
theorem query_coord2 (v0 : S1x256x3.Idx → α) (hc : S1x256x3.ShapeCasts S256x3) (hs : S256x3.Slices ![0, 2] S256x1) (r : Fin 256) :
    extractStridedSlice S256x1 ![0, 2] (shapeCast S256x3 v0 hc) hs (ix2 r (0 : Fin 1)) = v0 (ix3 (0 : Fin 1) r (2 : Fin 3)) :=
  query_coord v0 hc 2 2 rfl hs r

/-- Coordinate `a` of the chunk's 128 key points: row `a` of the [3, 128] view of the [1, 3, 128] block. -/
theorem key_coord (v31 : S1x3x128.Idx → α) (hc : S1x3x128.ShapeCasts S3x128) (o : ℕ) (a : Fin 3) (ha : a.val = o)
    (hs : S3x128.Slices ![o, 0] S1x128) (j : Fin 128) :
    extractStridedSlice S1x128 ![o, 0] (shapeCast S3x128 v31 hc) hs (ix2 (0 : Fin 1) j) = v31 (ix3 (0 : Fin 1) a j) :=
  (slice2_axis0_apply o _ hs (0 : Fin 1) j a (by simp [ha])).trans (shapeCast_1ab_ab_apply v31 hc a j)

theorem key_coord0 (v31 : S1x3x128.Idx → α) (hc : S1x3x128.ShapeCasts S3x128) (hs : S3x128.Slices ![0, 0] S1x128) (j : Fin 128) :
    extractStridedSlice S1x128 ![0, 0] (shapeCast S3x128 v31 hc) hs (ix2 (0 : Fin 1) j) = v31 (ix3 (0 : Fin 1) (0 : Fin 3) j) :=
  key_coord v31 hc 0 0 rfl hs j
theorem key_coord1 (v31 : S1x3x128.Idx → α) (hc : S1x3x128.ShapeCasts S3x128) (hs : S3x128.Slices ![1, 0] S1x128) (j : Fin 128) :
    extractStridedSlice S1x128 ![1, 0] (shapeCast S3x128 v31 hc) hs (ix2 (0 : Fin 1) j) = v31 (ix3 (0 : Fin 1) (1 : Fin 3) j) :=
  key_coord v31 hc 1 1 rfl hs j
theorem key_coord2 (v31 : S1x3x128.Idx → α) (hc : S1x3x128.ShapeCasts S3x128) (hs : S3x128.Slices ![2, 0] S1x128) (j : Fin 128) :
    extractStridedSlice S1x128 ![2, 0] (shapeCast S3x128 v31 hc) hs (ix2 (0 : Fin 1) j) = v31 (ix3 (0 : Fin 1) (2 : Fin 3) j) :=
  key_coord v31 hc 2 2 rfl hs j

/-- One trip of the loop, at (centre k, query row r): the running sum plus the chunk's 128 radial basis values. -/
theorem chunk_apply (v0 : Vec Ideal S1x256x3 .f32) (v5 : Vec Ideal S16x1x1 .f32) (acc : FVec Ideal S16x256 .f32)
    (v31 : Vec Ideal S1x3x128 .f32) (k : Fin 16) (r : Fin 256) :
    k0_pay2 v0 v5 acc v31 (ix2 k r)
      = acc (ix2 k r) + ∑ j : Fin 128, rbf (v5 (ix3 k (0 : Fin 1) (0 : Fin 1)))
          (dist (fun a => v0 (ix3 (0 : Fin 1) r a)) (fun a => v31 (ix3 (0 : Fin 1) a j))) := by
  unfold k0_pay2
  dsimp only
  refine (addf_apply _ _ _).trans (congrArg (acc (ix2 k r) + ·) ?_)
  refine (lane_sum _ _ _ _ k r).trans (Finset.sum_congr rfl fun j _ => ?_)
  simp only [exp, mulf, subf, addf, sqrt, broadcast, spread_centres, spread_dists, shapeCast_ab_1ab_apply, spread_col,
    broadcastTo_1b_ab_apply, query_coord0, query_coord1, query_coord2, key_coord0, key_coord1, key_coord2,
    shapeCast_self, Ideal.exp_def, Ideal.sqrt_def, Ideal.mulf_def, Ideal.subf_def, Ideal.addf_def, Ideal.ofBits_def]
  rfl

/-- The [256, 16] by [16, 256] product into the zero accumulator, at (row r, channel h), is the sum over the 16 shared
    positions of the products. -/
theorem linear_apply (l : FVec Ideal S256x16 .bf16) (w : FVec Ideal S16x256 .bf16) (r h : Fin 256) :
    matmul dot_S256x16_S16x256_S256x256_1_0_0_1_n_n none l w (constant S256x256 .f32 0x00000000#32) (ix2 r h)
      = ∑ k : Fin 16, l (ix2 r k) * w (ix2 k h) := by
  refine (Ideal.matmul_constant_zero_apply dot_S256x16_S16x256_S256x256_1_0_0_1_n_n none l w (ix2 r h)).trans ?_
  exact Contract2.sum_contr_eq_sum_fin dot_S256x16_S16x256_S256x256_1_0_0_1_n_n rfl rfl rfl rfl
    (fun j q => by
      unfold DotDims.lhsIdx
      rw [dif_neg (show ¬(0 : Fin S256x16.rank) ∈ dot_S256x16_S16x256_S256x256_1_0_0_1_n_n.lhsBatch by decide),
        dif_pos (show (0 : Fin S256x16.rank) ∈ dot_S256x16_S16x256_S256x256_1_0_0_1_n_n.lhsNonContracting by decide)]
      rfl)
    (fun j q => by
      unfold DotDims.rhsIdx
      rw [dif_neg (show ¬(1 : Fin S16x256.rank) ∈ dot_S256x16_S16x256_S256x256_1_0_0_1_n_n.rhsBatch by decide),
        dif_pos (show (1 : Fin S16x256.rank) ∈ dot_S256x16_S16x256_S256x256_1_0_0_1_n_n.rhsNonContracting by decide)]
      rfl)
    l w (ix2 r h)

/-- The stored block at (row r, channel h): the latent entry, plus the row's 16 running sums scaled by 2⁻¹⁰ and multiplied
    into the channel's 16 weights, plus the channel's bias. -/
theorem store_apply (v9 : FVec Ideal S16x256 .f32) (v14 : Vec Ideal S16x256 .f32) (v18 : Vec Ideal S256 .f32)
    (v22 : Vec Ideal S1x256x256 .f32) (r : Fin 256) (h : Fin 256) :
    k0_pay3 v9 v14 v18 v22 (ix3 (0 : Fin 1) r h)
      = outAt (v22 (ix3 (0 : Fin 1) r h)) (fun k => v9 (ix2 k r)) (fun k => v14 (ix2 k h)) (v18 (ix1 h)) := by
  unfold k0_pay3
  dsimp only
  refine (shapeCast_ab_1ab_apply _ _ (0 : Fin 1) r h).trans ?_
  refine (addf_apply _ _ _).trans ?_
  refine congrArg₂ (· + ·) (shapeCast_1ab_ab_apply v22 _ r h) ?_
  refine (addf_apply _ _ _).trans ?_
  refine congrArg₂ (· + ·) ((linear_apply _ _ r h).trans (Finset.sum_congr rfl fun k _ => ?_))
    ((broadcastTo_1b_ab_apply _ _ r h).trans (shapeCast_a_1a_apply v18 _ (0 : Fin 1) h))
  refine congrArg₂ (· * ·) ?_ ?_
  · exact transpose_ix2_apply (mulf v9 (broadcast S16x256 (FloatOps.ofBits .f32 0x3A800000#32))) transposes_S16x256_p1_0_S256x16 r k
  · exact congrFun (shapeCast_self v14 shapeCasts_S16x256_S16x256) (ix2 k h)

end Cert.Rbf.Kernel

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.KernelBody.lean ====
/-
  The kernel's body as one function of its six input blocks.

  The body's loop runs over the 8 chunks of 128 key points. Trip q reads the chunk's three coordinate rows out of the
  [1, 3, 1024] key block at columns 128·q … 128·q + 127 and adds, to a running [16, 256] table that starts at zero,
  the chunk's radial basis values summed over its 128 keys. So before trip q the table holds, at (centre k, query row
  r), the sum over the first q chunks; after the eighth trip that is the sum over all 1024 key points, a sum over
  8 × 128 positions read as one sum over 1024 (only the commutativity and associativity of the addition are used).
  The stored block is then the latent block plus the linear layer of that table.
-/
import proofs.«113788_j62199716381658_1_alg».proof.Proof.Gen.KernelIdeal.Frame
import proofs.«113788_j62199716381658_1_alg».proof.Proof.Spec
import proofs.«113788_j62199716381658_1_alg».proof.Proof.KernelPay
import proofs.«113788_j62199716381658_1_alg».proof.Proof.LibSumBlocks

noncomputable section

open scoped BigOperators

namespace Cert.Rbf.Kernel

open Cert.KernelIdeal Cert.KernelIdeal.Gen Idealize.ShloMosaic Idealize.ShloMosaic.TcCoe Idealize.ShloMosaic.ValueIdx Cert.Rbf

theorem trips_eq : k0_t1_loop.trips = 8 := by decide

/-- Coordinate `a` of key point `p` of a [1, 3, 1024] key block; zero past the last point. -/
def keyAt (x1 : S1x3x1024.Idx → EReal) (a : Fin 3) (p : ℕ) : EReal :=
  if hp : p < 1024 then x1 (ix3 (0 : Fin 1) a ⟨p, hp⟩) else 0

/-- The [1, 3, 128] chunk that trip q loads, at (coordinate a, position j), is key point 128·q + j of the block. -/
theorem chunk_at (x1 : Vec Ideal S1x3x1024 .f32) (q : Fin k0_t1_loop.trips) (a : Fin 3) (j : Fin 128) :
    View.ld (Val := Elt Ideal) (e' := EltTy.f32) x1 (Rect.unit (k0_off1 q) S1x3x128.size (k0_off1_inb q)) (ix3 (0 : Fin 1) a j) = keyAt x1 a (128 * q.val + j.val) := by
  have hq : q.val < 8 := trips_eq ▸ q.isLt
  have hp : 128 * q.val + j.val < 1024 := by have := j.isLt; omega
  unfold keyAt
  rw [dif_pos hp]
  refine congrArg x1 (funext fun d => Fin.ext ?_)
  match d with
  | ⟨0, _⟩ => show (k0_off1 q) 0 + 1 * 0 = 0; rw [k0_off1_eq]; rfl
  | ⟨1, _⟩ => show (k0_off1 q) 1 + 1 * a.val = a.val; rw [k0_off1_eq]; simp
  | ⟨2, _⟩ => show (k0_off1 q) 2 + 1 * j.val = 128 * q.val + j.val; rw [k0_off1_eq]; simp

/-- The radial basis values of one chunk position: centre k, query row r, key point p. -/
def term (x0 : S1x256x3.Idx → EReal) (x1 : S1x3x1024.Idx → EReal) (x5 : S16x1x1.Idx → EReal) (k : Fin 16) (r : Fin 256) (p : ℕ) : EReal :=
  rbf (x5 (ix3 k (0 : Fin 1) (0 : Fin 1))) (dist (fun a => x0 (ix3 (0 : Fin 1) r a)) (fun a => keyAt x1 a p))

/-- One trip's result, as the loop's run states it, is the trip's arithmetic of the chunk it loads. -/
theorem trip_eq (𝒱 : Variants) (bd : Option 𝒱.V) (c : Dev nD) (i : grid0.Coords) (arg2 : Memref sig .tc .vmem S1x256x3 .f32) (harg2 : arg2.IsWhole) (arg3 : Memref sig .tc .vmem S1x3x1024 .f32) (harg3 : arg3.IsWhole) (arg4 : Memref sig .tc .vmem S1x256x256 .f32) (harg4 : arg4.IsWhole) (arg5 : Memref sig .tc .vmem S16x256 .f32) (harg5 : arg5.IsWhole) (arg6 : Memref sig .tc .vmem S256 .f32) (harg6 : arg6.IsWhole) (arg7 : Memref sig .tc .vmem S16x1x1 .f32) (harg7 : arg7.IsWhole) (arg8 : Memref sig .tc .vmem S1x256x256 .f32) (harg8 : arg8.IsWhole)
    (v0 : Vec Ideal S1x256x3 .f32) (v5 : Vec Ideal S16x1x1 .f32) (X : BufTy.Contents (Elt Ideal) arg3.view.ty)
    (q : Fin k0_t1_loop.trips) (acc : FVec Ideal S16x256 .f32) :
    tripR_k0_t1 𝒱 c bd i arg2 harg2 arg3 harg3 arg4 harg4 arg5 harg5 arg6 harg6 arg7 harg7 arg8 harg8 v0 v5 X q acc
      = k0_pay2 v0 v5 acc (View.ld (arg3.view.read (Elt Ideal) X) (Rect.unit (k0_off1 q) S1x3x128.size (k0_off1_inb q))) := by
  unfold tripR_k0_t1 trip_k0_t1
  rfl

/-- Before trip n the running table holds, at (centre k, query row r), its start value plus the radial basis values of
    the first n chunks. -/
theorem table_before (𝒱 : Variants) (bd : Option 𝒱.V) (c : Dev nD) (i : grid0.Coords) (arg2 : Memref sig .tc .vmem S1x256x3 .f32) (harg2 : arg2.IsWhole) (arg3 : Memref sig .tc .vmem S1x3x1024 .f32) (harg3 : arg3.IsWhole) (arg4 : Memref sig .tc .vmem S1x256x256 .f32) (harg4 : arg4.IsWhole) (arg5 : Memref sig .tc .vmem S16x256 .f32) (harg5 : arg5.IsWhole) (arg6 : Memref sig .tc .vmem S256 .f32) (harg6 : arg6.IsWhole) (arg7 : Memref sig .tc .vmem S16x1x1 .f32) (harg7 : arg7.IsWhole) (arg8 : Memref sig .tc .vmem S1x256x256 .f32) (harg8 : arg8.IsWhole)
    (v0 : Vec Ideal S1x256x3 .f32) (v5 : Vec Ideal S16x1x1 .f32) (X : BufTy.Contents (Elt Ideal) arg3.view.ty)
    (init : FVec Ideal S16x256 .f32) (k : Fin 16) (r : Fin 256) :
    ∀ n : ℕ, n ≤ k0_t1_loop.trips →
      st_k0_t1 𝒱 c bd i arg2 harg2 arg3 harg3 arg4 harg4 arg5 harg5 arg6 harg6 arg7 harg7 arg8 harg8 v0 v5 X init n (ix2 k r)
        = init (ix2 k r) + ∑ q ∈ Finset.range n, ∑ j : Fin 128, term v0 (arg3.view.read (Elt Ideal) X) v5 k r (128 * q + j.val)
  | 0, _ => by rw [Finset.range_zero, Finset.sum_empty, add_zero]; rfl
  | n + 1, hn => by
    have hlt : n < k0_t1_loop.trips := hn
    have e := st_k0_t1_succ 𝒱 c bd i arg2 harg2 arg3 harg3 arg4 harg4 arg5 harg5 arg6 harg6 arg7 harg7 arg8 harg8 v0 v5 X init ⟨n, hlt⟩
    rw [show (⟨n, hlt⟩ : Fin k0_t1_loop.trips).val + 1 = n + 1 from rfl] at e
    rw [e, trip_eq, chunk_apply, table_before 𝒱 bd c i arg2 harg2 arg3 harg3 arg4 harg4 arg5 harg5 arg6 harg6 arg7 harg7 arg8 harg8 v0 v5 X init k r n (Nat.le_of_lt hlt), Finset.sum_range_succ, add_assoc]
    refine congrArg (init (ix2 k r) + ·) (congrArg (_ + ·) (Finset.sum_congr rfl fun j _ => ?_))
    unfold term
    refine congrArg (rbf _) (congrArg (dist _) (funext fun a => ?_))
    exact chunk_at _ ⟨n, hlt⟩ a j

/-- The 8 chunks of 128 key points are all 1024 key points. -/
theorem sum_chunks (f : ℕ → EReal) :
    ∑ q ∈ Finset.range 8, ∑ j : Fin 128, f (128 * q + j.val) = ∑ n : Fin 1024, f n.val := by
  rw [Finset.sum_range, SumBlocks.sum_blocks (A := 8) (B := 128) (fun n : Fin (8 * 128) => f n.val)]
  refine Finset.sum_congr rfl fun q _ => Finset.sum_congr rfl fun j _ => ?_
  show f (128 * q.val + j.val) = f (q.val * 128 + j.val)
  rw [Nat.mul_comm]

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a; rfl

/-- What one grid point leaves in its output block, at (row r, channel h): the latent entry plus the linear layer of
    the row's 16 radial sums over all 1024 key points of the batch. -/
theorem body_eq (c : Dev nD) (i : grid0.Coords) (arg2 : Memref sig .tc .vmem S1x256x3 .f32) (harg2 : arg2.IsWhole) (arg3 : Memref sig .tc .vmem S1x3x1024 .f32) (harg3 : arg3.IsWhole) (arg4 : Memref sig .tc .vmem S1x256x256 .f32) (harg4 : arg4.IsWhole) (arg5 : Memref sig .tc .vmem S16x256 .f32) (harg5 : arg5.IsWhole) (arg6 : Memref sig .tc .vmem S256 .f32) (harg6 : arg6.IsWhole) (arg7 : Memref sig .tc .vmem S16x1x1 .f32) (harg7 : arg7.IsWhole) (arg8 : Memref sig .tc .vmem S1x256x256 .f32) (harg8 : arg8.IsWhole)
    (x0 : Vec Ideal S1x256x3 .f32) (x1 : Vec Ideal S1x3x1024 .f32) (x2 : Vec Ideal S1x256x256 .f32) (x3 : Vec Ideal S16x256 .f32) (x4 : Vec Ideal S256 .f32) (x5 : Vec Ideal S16x1x1 .f32)
    (r : Fin 256) (h : Fin 256) :
    out0_A_6 (F := Ideal) c i arg2 harg2 arg3 harg3 arg4 harg4 arg5 harg5 arg6 harg6 arg7 harg7 arg8 harg8 x0 x1 x2 x3 x4 x5 (ix3 (0 : Fin 1) r h)
      = outAt (x2 (ix3 (0 : Fin 1) r h))
          (fun k => ∑ n : Fin 1024, rbf (x5 (ix3 k (0 : Fin 1) (0 : Fin 1)))
            (dist (fun a => x0 (ix3 (0 : Fin 1) r a)) (fun a => x1 (ix3 (0 : Fin 1) a n))))
          (fun k => x3 (ix2 k h)) (x4 (ix1 h)) := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  rw [View.canon_unit_zero zero3]
  simp only [View.readAt_eq_ld, harg2.read_unread, harg4.read_unread, harg5.read_unread, harg6.read_unread, harg7.read_unread,
    View.ld_unit_zero (S := S1x256x3) zero3, View.ld_unit_zero (S := S1x256x256) zero3, View.ld_unit_zero (S := S16x1x1) zero3,
    View.ld_unit_zero (S := S16x256) zero2, View.ld_unit_zero (S := S256) zero1]
  refine (store_apply _ _ _ _ r h).trans ?_
  refine congrArg (fun S => outAt (x2 (ix3 (0 : Fin 1) r h)) S (fun k => x3 (ix2 k h)) (x4 (ix1 h))) (funext fun k => ?_)
  have hT : Scf.trips (0#32 : BitVec 32) (Scalar.addi 0#32 8#32) 1#32 = 8 := by decide
  rw [hT, table_before Variants.none none c i arg2 harg2 arg3 harg3 arg4 harg4 arg5 harg5 arg6 harg6 arg7 harg7 arg8 harg8 x0 x5 (harg3.unread x1) k0_pay1 k r 8 (by rw [trips_eq]),
    harg3.read_unread, show k0_pay1 (F := Ideal) (ix2 k r) = 0 from Ideal.ofBits_zero_f32, zero_add,
    sum_chunks (term x0 x1 x5 k r)]
  refine Finset.sum_congr rfl fun n _ => ?_
  unfold term
  refine congrArg (rbf _) (congrArg (dist _) (funext fun a => ?_))
  unfold keyAt
  rw [dif_pos n.isLt]

end Cert.Rbf.Kernel

end
-- ==== Proof.KernelArray.lean ====
/-
  From the blocks the grid points write to the whole result array.

  The kernel runs over a grid of 8 × 4 points, one per batch b and per tile of 256 query points. A BLOCK is the part of an
  array that one point works on. The point (b, j) writes the output block of the 256 rows 256·j … 256·j + 255 of batch b,
  all 256 channels; its entry (r, h) sits in the result array at (b, 256·j + r, h). To compute that entry the point reads:

    • from the positions' row block [1, 256, 3], row r: the three coordinates of the query point (b, 256·j + r);
    • from the block [1, 3, 1024] of the positions with their last two axes exchanged, column n: the three coordinates of
      point n of batch b, for every n < 1024;
    • from the latent's block [1, 256, 256], entry (r, h): the latent at (b, 256·j + r, h);
    • from the weights with their axes exchanged, [16, 256], entry (k, h): the weight of centre k for channel h;
    • from the bias [256], entry h; and from the centres reshaped to [16, 1, 1], entry (k, 0, 0): centre k.

  The last three are whole arrays, the same at every point. With these reads, what a point leaves in its output block is
  its block of the specification function G of the five argument arrays; the 32 output blocks tile the result array, so
  after the run the result array is G of the arguments.
-/
import proofs.«113788_j62199716381658_1_alg».proof.Proof.Gen.KernelIdeal.Value
import proofs.«113788_j62199716381658_1_alg».proof.Proof.KernelBody
import proofs.«113788_j62199716381658_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.Rbf.Array

open Cert.KernelIdeal Cert.KernelIdeal.Gen Cert.KernelIdeal.Value Idealize.ShloMosaic Idealize.ShloMosaic.TcCoe Idealize.SL.Sem Idealize.ShloMosaic.ValueIdx

variable (m : (ℓ : Loc nD τ sig) → Buf (Elt Ideal) ℓ) (ρ : Dev nD → PrngReg)

/-- The positions with the last two axes exchanged, as the region finds them. -/
theorem V_v0 (c : Dev nD) :
    (V m c main_v0 : S8x3x1024.Idx → EReal)
      = transpose S8x3x1024 [0, 2, 1] (m ((c : Thread nD τ).loc main_arg0)) transposes_S8x1024x3_S8x3x1024_0_2_1 := by
  dsimp only [Gen.V, Gen.hostOps0]
  after_results

/-- The weights with their two axes exchanged, as the region finds them. -/
theorem V_v1 (c : Dev nD) :
    (V m c main_v1 : S16x256.Idx → EReal)
      = transpose S16x256 [1, 0] (m ((c : Thread nD τ).loc main_arg2)) transposes_S256x16_S16x256_1_0 := by
  dsimp only [Gen.V, Gen.hostOps0]
  after_results

/-- The centres as a 16 by 1 by 1 array, as the region finds them. -/
theorem V_v2 (c : Dev nD) :
    (V m c main_v2 : S16x1x1.Idx → EReal)
      = shapeCast S16x1x1 (m ((c : Thread nD τ).loc main_arg4)) shapeCasts_S16_S16x1x1 := by
  dsimp only [Gen.V, Gen.hostOps0]
  after_results
  rfl

/-- The index maps of the seven windows, decided over the 32 grid points: the positions' row block and the latent's block move
    with the output's block, the transposed positions' block follows the batch alone, and the weights, the bias and the centres are
    whole arrays. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = win0_6.index t (1 : Fin 3)
    ∧ win0_2.index t (2 : Fin 3) = win0_6.index t (2 : Fin 3)
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (2 : Fin 3) = 0 :=
  (by decide +kernel : ∀ t : Fin grid0.N, _)

/-- The array index under entry (r, h) of point t's output block. -/
abbrev at6 (t : Fin cfg0.N) (r h : Fin 256) : S8x1024x256.Idx := ((cfg0.win 6).blk t).view.emb (ix3 (0 : Fin 1) r h)

/-- Row r, coordinate a of the positions' row block is coordinate a of the query point under the output entry. -/
theorem blk_row (c : Dev nD) (t : Fin cfg0.N) (r h : Fin 256) (a : Fin 3) :
    (iblk m c 0 t : Vec Ideal S1x256x3 .f32) (ix3 (0 : Fin 1) r a)
      = (m ((c : Thread nD τ).loc main_arg0) : S8x1024x3.Idx → EReal) (ix3 (at6 t r h 0) (at6 t r h 1) a) := by
  obtain ⟨e0, e1, e2, -⟩ := idx_facts t
  unfold iblk
  rw [View.read_apply]
  show V m c main_arg0 (((cfg0.win 0).blk t).view.emb (ix3 (0 : Fin 1) r a)) = _
  rw [V_main_arg0]
  refine congrArg _ (funext fun d => Fin.ext ?_)
  match d with
  | ⟨0, _⟩ => show win0_0.index t (0 : Fin 3) * 1 + 1 * 0 = win0_6.index t (0 : Fin 3) * 1 + 1 * 0; omega
  | ⟨1, _⟩ => show win0_0.index t (1 : Fin 3) * 256 + 1 * r.val = win0_6.index t (1 : Fin 3) * 256 + 1 * r.val; omega
  | ⟨2, _⟩ => show win0_0.index t (2 : Fin 3) * 3 + 1 * a.val = a.val; omega

/-- Coordinate a, column n of the transposed positions' block is coordinate a of point n of the output entry's batch. -/
theorem blk_col (c : Dev nD) (t : Fin cfg0.N) (r h : Fin 256) (a : Fin 3) (n : Fin 1024) :
    (iblk m c 1 t : Vec Ideal S1x3x1024 .f32) (ix3 (0 : Fin 1) a n)
      = (m ((c : Thread nD τ).loc main_arg0) : S8x1024x3.Idx → EReal) (ix3 (at6 t r h 0) n a) := by
  obtain ⟨-, -, -, e0, e1, e2, -⟩ := idx_facts t
  unfold iblk
  rw [View.read_apply]
  show V m c main_v0 (((cfg0.win 1).blk t).view.emb (ix3 (0 : Fin 1) a n)) = _
  rw [V_v0]
  refine (transpose_apply _ _ _ _ (ix3 (at6 t r h 0) n a) fun b => ?_).trans rfl
  match b with
  | ⟨0, _⟩ => show win0_6.index t (0 : Fin 3) * 1 + 1 * 0 = win0_1.index t (0 : Fin 3) * 1 + 1 * 0; omega
  | ⟨1, _⟩ => show a.val = win0_1.index t (1 : Fin 3) * 3 + 1 * a.val; omega
  | ⟨2, _⟩ => show n.val = win0_1.index t (2 : Fin 3) * 1024 + 1 * n.val; omega

/-- Entry (r, h) of the latent's block is the latent under the output entry. -/
theorem blk_lat (c : Dev nD) (t : Fin cfg0.N) (r h : Fin 256) :
    (iblk m c 2 t : Vec Ideal S1x256x256 .f32) (ix3 (0 : Fin 1) r h)
      = (m ((c : Thread nD τ).loc main_arg1) : S8x1024x256.Idx → EReal) (at6 t r h) := by
  obtain ⟨-, -, -, -, -, -, e0, e1, e2, -⟩ := idx_facts t
  unfold iblk
  rw [View.read_apply]
  show V m c main_arg1 (((cfg0.win 2).blk t).view.emb (ix3 (0 : Fin 1) r h)) = _
  rw [V_main_arg1]
  refine congrArg _ (funext fun d => Fin.ext ?_)
  match d with
  | ⟨0, _⟩ => show win0_2.index t (0 : Fin 3) * 1 + 1 * 0 = win0_6.index t (0 : Fin 3) * 1 + 1 * 0; omega
  | ⟨1, _⟩ => show win0_2.index t (1 : Fin 3) * 256 + 1 * r.val = win0_6.index t (1 : Fin 3) * 256 + 1 * r.val; omega
  | ⟨2, _⟩ => show win0_2.index t (2 : Fin 3) * 256 + 1 * h.val = win0_6.index t (2 : Fin 3) * 256 + 1 * h.val; omega

/-- Entry (k, h) of the transposed weights is the weight of centre k for the output entry's channel. -/
theorem blk_w (c : Dev nD) (t : Fin cfg0.N) (r h : Fin 256) (k : Fin 16) :
    (iblk m c 3 t : Vec Ideal S16x256 .f32) (ix2 k h)
      = (m ((c : Thread nD τ).loc main_arg2) : S256x16.Idx → EReal) (ix2 (at6 t r h 2) k) := by
  obtain ⟨-, -, -, -, -, -, -, -, -, e0, e1, -, -, -, -, e6⟩ := idx_facts t
  unfold iblk
  rw [View.read_apply]
  show V m c main_v1 (((cfg0.win 3).blk t).view.emb (ix2 k h)) = _
  rw [V_v1]
  refine (transpose_apply _ _ _ _ (ix2 (at6 t r h 2) k) fun b => ?_).trans rfl
  match b with
  | ⟨0, _⟩ => show k.val = win0_3.index t (0 : Fin 2) * 16 + 1 * k.val; omega
  | ⟨1, _⟩ => show win0_6.index t (2 : Fin 3) * 256 + 1 * h.val = win0_3.index t (1 : Fin 2) * 256 + 1 * h.val; omega

/-- Entry h of the bias block is the bias of the output entry's channel. -/
theorem blk_bias (c : Dev nD) (t : Fin cfg0.N) (r h : Fin 256) :
    (iblk m c 4 t : Vec Ideal S256 .f32) (ix1 h)
      = (m ((c : Thread nD τ).loc main_arg3) : S256.Idx → EReal) (ix1 (at6 t r h 2)) := by
  obtain ⟨-, -, -, -, -, -, -, -, -, -, -, e0, -, -, -, e6⟩ := idx_facts t
  unfold iblk
  rw [View.read_apply]
  show V m c main_arg3 (((cfg0.win 4).blk t).view.emb (ix1 h)) = _
  rw [V_main_arg3]
  refine congrArg _ (funext fun d => Fin.ext ?_)
  match d with
  | ⟨0, _⟩ => show win0_4.index t (0 : Fin 1) * 256 + 1 * h.val = win0_6.index t (2 : Fin 3) * 256 + 1 * h.val; omega

/-- Entry (k, 0, 0) of the reshaped centres is centre k. -/
theorem blk_cen (c : Dev nD) (t : Fin cfg0.N) (k : Fin 16) :
    (iblk m c 5 t : Vec Ideal S16x1x1 .f32) (ix3 k (0 : Fin 1) (0 : Fin 1))
      = (m ((c : Thread nD τ).loc main_arg4) : S16.Idx → EReal) (ix1 k) := by
  obtain ⟨-, -, -, -, -, -, -, -, -, -, -, -, e0, e1, e2, -⟩ := idx_facts t
  unfold iblk
  rw [View.read_apply]
  show V m c main_v2 (((cfg0.win 5).blk t).view.emb (ix3 k (0 : Fin 1) (0 : Fin 1))) = _
  rw [V_v2]
  refine (shapeCast_apply _ _ _ (ix1 k) ?_).trans rfl
  rw [Shape.rowMajor_val_one, Shape.rowMajor_val_three]
  show k.val = ((win0_5.index t (0 : Fin 3) * 16 + 1 * k.val) * 1 + (win0_5.index t (1 : Fin 3) * 1 + 1 * 0)) * 1
    + (win0_5.index t (2 : Fin 3) * 1 + 1 * 0)
  omega

/-- What point t writes back is its block of the specification function of the five argument arrays. -/
theorem flushed_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed6_A]
  funext y
  obtain ⟨u, r, h, rfl⟩ : ∃ (u : Fin 1) (r h : Fin 256), y = ix3 u r h :=
    ⟨y 0, y 1, y 2, eq_ix3 (n0 := 1) (n1 := 256) (n2 := 256) y⟩
  obtain rfl : u = 0 := Subsingleton.elim _ _
  refine (Cert.Rbf.Kernel.body_eq c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (iblk m c 0 t) (iblk m c 1 t) (iblk m c 2 t)
    (iblk m c 3 t) (iblk m c 4 t) (iblk m c 5 t) r h).trans ?_
  rw [blk_lat m c t r h, blk_bias m c t r h]
  simp only [blk_row m c t r h, blk_col m c t r h, blk_w m c t r h, blk_cen m c t]
  rfl

/-- Every pair of a batch and a row tile is the output block index of some grid point (decided over the grid). -/
theorem idx_onto : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

/-- An array index is in point t's output block iff each coordinate is in the block's range on its axis. -/
theorem mem_blk (t : Fin cfg0.N) (i : S8x1024x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v3).slice (win0_6.rect t)).set ↔ _
  rw [View.set_slice_whole, Rect.mem_set_unit]
  exact Iff.rfl

/-- Every index (b, l, h) of the result lies in the output block of the point of batch b and row tile l / 256. -/
theorem cover (i : S8x1024x256.Idx) :
    ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 256 := (i 2).isLt
  obtain ⟨t, ht⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- After the run the result array is the specification function of the five argument arrays. -/
theorem final (c : Dev nD) :
    (dats m 0 c).arrAt 6 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 6 _ (fun t _ => flushed_eq m c t) cover

/-- The kernel's run: the result array ends at the specification function of the arguments, and the arguments are unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Rbf.Array

end
-- ==== Proof.lean ====
/-
  The kernel and its reference compute the same function over the extended reals.

  For each of 8 batches of 1024 points in space, each point l and each of 256 hidden channels h, both programs return

      latent (b, l, h) + ( Σ_r ( (Σ_n exp (−½ · (c_r − ‖p_l − p_n‖)²)) / 1024 ) · W (h, r) + bias h ),

  the sum over n running over the 1024 points of the batch and the sum over r over 16 radial centres (Spec.lean).
  The kernel walks a grid of 8 × 4 points, each owning 256 query rows of one batch; at a grid point it sums the radial
  basis values chunk by chunk over 8 chunks of 128 key points, scales by 2⁻¹⁰, applies the linear layer as a matrix
  product and adds the latent block (KernelPay.lean, KernelBody.lean); the 32 blocks tile the result array
  (KernelArray.lean). The reference forms all 8 · 1024 · 1024 pairwise distances at once, takes the mean over the
  second point as a sum divided by 1024, and contracts with the weights (RefValue.lean). The two differ in the grouping
  of the sum over the key points (8 × 128 against 1024), in the order of the difference under the square
  (c − d against d − c) and in dividing by 1024 against multiplying by 2⁻¹⁰; each of these is an identity of the
  extended reals that needs no finiteness, so the precondition is not used. The idealization rewrote nothing, so the
  kernel's idealized text is the kernel's own text, and the three programs' argument arrays end as they began.
-/
import proofs.«113788_j62199716381658_1_alg».proof.Defs
import proofs.«113788_j62199716381658_1_alg».proof.Proof.Gen.Kernel
import proofs.«113788_j62199716381658_1_alg».proof.Proof.Gen.Kernel.Skeleton
import proofs.«113788_j62199716381658_1_alg».proof.Proof.Gen.Kernel.Loops
import proofs.«113788_j62199716381658_1_alg».proof.Proof.Gen.Kernel.Launch
import proofs.«113788_j62199716381658_1_alg».proof.Proof.Gen.Kernel.Points
import proofs.«113788_j62199716381658_1_alg».proof.Proof.Gen.Kernel.Frame
import proofs.«113788_j62199716381658_1_alg».proof.Proof.Gen.KernelIdeal
import proofs.«113788_j62199716381658_1_alg».proof.Proof.Gen.KernelIdeal.Skeleton
import proofs.«113788_j62199716381658_1_alg».proof.Proof.Gen.KernelIdeal.Loops
import proofs.«113788_j62199716381658_1_alg».proof.Proof.Gen.KernelIdeal.Launch
import proofs.«113788_j62199716381658_1_alg».proof.Proof.Gen.KernelIdeal.Points
import proofs.«113788_j62199716381658_1_alg».proof.Proof.Gen.KernelIdeal.Frame
import proofs.«113788_j62199716381658_1_alg».proof.Proof.Gen.ReferenceIdeal
import proofs.«113788_j62199716381658_1_alg».proof.Proof.Gen.Pre_finite_inputs
import proofs.«113788_j62199716381658_1_alg».proof.Proof.Gen.KernelIdeal.Value
import proofs.«113788_j62199716381658_1_alg».proof.Proof.Gen.ReferenceIdeal.Run
import proofs.«113788_j62199716381658_1_alg».proof.Proof.Gen.ReferenceIdeal.Read
import proofs.«113788_j62199716381658_1_alg».proof.Proof.Spec
import proofs.«113788_j62199716381658_1_alg».proof.Proof.RefValue
import proofs.«113788_j62199716381658_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its five argument arrays as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the five arguments the kernel's result array and the reference's are the same function
    `G` of those arguments, entry by entry. -/
theorem algebraic : Cert.algebraic_KernelIdeal_ReferenceIdeal := by
  intro m ρ m' ρ' _ hagree
  refine ⟨_, Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
